-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 66
  | .vmem => 18
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S40000x128, .f32⟩
  | .hbm, ⟨23, _⟩ => ⟨S640000x1, .i32⟩
  | .hbm, ⟨24, _⟩ => ⟨S40000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S40000, .f32⟩
  | .hbm, ⟨29, _⟩ => ⟨S640000x1, .i32⟩
  | .hbm, ⟨30, _⟩ => ⟨S40000, .f32⟩
  | .hbm, ⟨31, _⟩ => ⟨S_, .f32⟩
  | .hbm, ⟨32, _⟩ => ⟨S40000, .f32⟩
  | .hbm, ⟨33, _⟩ => ⟨S40000, .f32⟩
  | .hbm, ⟨34, _⟩ => ⟨S40000x1, .f32⟩
  | .hbm, ⟨35, _⟩ => ⟨S40000x128, .f32⟩
  | .hbm, ⟨36, _⟩ => ⟨S40000x128, .f32⟩
  | .hbm, ⟨37, _⟩ => ⟨S1x128, .f32⟩
  | .hbm, ⟨38, _⟩ => ⟨S40000x128, .f32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000x128, .f32⟩
  | .hbm, ⟨48, _⟩ => ⟨S_, .f32⟩
  | .hbm, ⟨49, _⟩ => ⟨S40000x128, .f32⟩
  | .hbm, ⟨50, _⟩ => ⟨S640000x1, .i32⟩
  | .hbm, ⟨51, _⟩ => ⟨S40000x128, .f32⟩
  | .hbm, ⟨52, _⟩ => ⟨S_, .f32⟩
  | .hbm, ⟨53, _⟩ => ⟨S640000, .f32⟩
  | .hbm, ⟨54, _⟩ => ⟨S_, .f32⟩
  | .hbm, ⟨55, _⟩ => ⟨S40000, .f32⟩
  | .hbm, ⟨56, _⟩ => ⟨S640000x1, .i32⟩
  | .hbm, ⟨57, _⟩ => ⟨S40000, .f32⟩
  | .hbm, ⟨58, _⟩ => ⟨S_, .f32⟩
  | .hbm, ⟨59, _⟩ => ⟨S40000, .f32⟩
  | .hbm, ⟨60, _⟩ => ⟨S40000, .f32⟩
  | .hbm, ⟨61, _⟩ => ⟨S40000x1, .f32⟩
  | .hbm, ⟨62, _⟩ => ⟨S40000x128, .f32⟩
  | .hbm, ⟨63, _⟩ => ⟨S40000x128, .f32⟩
  | .hbm, ⟨64, _⟩ => ⟨S1x128, .f32⟩
  | .hbm, ⟨65, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call1_v0 : Ref sig .tc := ⟨.hbm, 64, rfl⟩
abbrev main_v43 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S40000x128.size a
  hwx0_1 : ∀ i : grid0.Coords, EltTy.bits .f32 = 32 ∨ (Rect.block (s := S40000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S40000x128.size a
  hwx0_5 : ∀ i : grid0.Coords, EltTy.bits .f32 = 32 ∨ (Rect.block (s := S40000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S40000x128.size a
  hwx1_5 : ∀ i : grid1.Coords, EltTy.bits .f32 = 32 ∨ (Rect.block (s := S40000x128) S5000x128.size (cc1_transform_5 i) (hinb1_5 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call1_v0) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S40000x128, .f32⟩
  | .hbm, ⟨23, _⟩ => ⟨S640000x1, .i32⟩
  | .hbm, ⟨24, _⟩ => ⟨S40000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S40000, .f32⟩
  | .hbm, ⟨29, _⟩ => ⟨S640000x1, .i32⟩
  | .hbm, ⟨30, _⟩ => ⟨S40000, .f32⟩
  | .hbm, ⟨31, _⟩ => ⟨S_, .f32⟩
  | .hbm, ⟨32, _⟩ => ⟨S40000, .f32⟩
  | .hbm, ⟨33, _⟩ => ⟨S40000, .f32⟩
  | .hbm, ⟨34, _⟩ => ⟨S40000x1, .f32⟩
  | .hbm, ⟨35, _⟩ => ⟨S40000x128, .f32⟩
  | .hbm, ⟨36, _⟩ => ⟨S40000x128, .f32⟩
  | .hbm, ⟨37, _⟩ => ⟨S40000x128, .f32⟩
  | .hbm, ⟨38, _⟩ => ⟨S1x128, .f32⟩
  | .hbm, ⟨39, _⟩ => ⟨S40000x128, .f32⟩
  | .hbm, ⟨40, _⟩ => ⟨S40000x128, .f32⟩
  | .hbm, ⟨41, _⟩ => ⟨S40000x128, .f32⟩
  | .hbm, ⟨42, _⟩ => ⟨S40000x128, .f32⟩
  | .hbm, ⟨43, _⟩ => ⟨S40000x128, .f32⟩
  | .hbm, ⟨44, _⟩ => ⟨S_, .f32⟩
  | .hbm, ⟨45, _⟩ => ⟨S40000, .f32⟩
  | .hbm, ⟨46, _⟩ => ⟨S40000x1, .f32⟩
  | .hbm, ⟨47, _⟩ => ⟨S40000x1, .f32⟩
  | .hbm, ⟨48, _⟩ => ⟨S_, .f32⟩
  | .hbm, ⟨49, _⟩ => ⟨S40000x1, .f32⟩
  | .hbm, ⟨50, _⟩ => ⟨S40000x1, .f32⟩
  | .hbm, ⟨51, _⟩ => ⟨S40000x128, .f32⟩
  | .hbm, ⟨52, _⟩ => ⟨S40000x128, .f32⟩
  | .hbm, ⟨53, _⟩ => ⟨S_, .f32⟩
  | .hbm, ⟨54, _⟩ => ⟨S40000x128, .f32⟩
  | .hbm, ⟨55, _⟩ => ⟨S40000x128, .f32⟩
  | .hbm, ⟨56, _⟩ => ⟨S_, .i32⟩
  | .hbm, ⟨57, _⟩ => ⟨S640000, .i32⟩
  | .hbm, ⟨58, _⟩ => ⟨S640000, .i1⟩
  | .hbm, ⟨59, _⟩ => ⟨S_, .i32⟩
  | .hbm, ⟨60, _⟩ => ⟨S640000, .i32⟩
  | .hbm, ⟨61, _⟩ => ⟨S640000, .i32⟩
  | .hbm, ⟨62, _⟩ => ⟨S640000, .i32⟩
  | .hbm, ⟨63, _⟩ => ⟨S640000x1, .i32⟩
  | .hbm, ⟨64, _⟩ => ⟨S640000x128, .f32⟩
  | .hbm, ⟨65, _⟩ => ⟨S_, .f32⟩
  | .hbm, ⟨66, _⟩ => ⟨S40000x128, .f32⟩
  | .hbm, ⟨67, _⟩ => ⟨S640000x1, .i32⟩
  | .hbm, ⟨68, _⟩ => ⟨S40000x128, .f32⟩
  | .hbm, ⟨69, _⟩ => ⟨S_, .f32⟩
  | .hbm, ⟨70, _⟩ => ⟨S640000, .f32⟩
  | .hbm, ⟨71, _⟩ => ⟨S_, .f32⟩
  | .hbm, ⟨72, _⟩ => ⟨S40000, .f32⟩
  | .hbm, ⟨73, _⟩ => ⟨S640000x1, .i32⟩
  | .hbm, ⟨74, _⟩ => ⟨S40000, .f32⟩
  | .hbm, ⟨75, _⟩ => ⟨S_, .f32⟩
  | .hbm, ⟨76, _⟩ => ⟨S40000, .f32⟩
  | .hbm, ⟨77, _⟩ => ⟨S40000, .f32⟩
  | .hbm, ⟨78, _⟩ => ⟨S40000x1, .f32⟩
  | .hbm, ⟨79, _⟩ => ⟨S40000x128, .f32⟩
  | .hbm, ⟨80, _⟩ => ⟨S40000x128, .f32⟩
  | .hbm, ⟨81, _⟩ => ⟨S40000x128, .f32⟩
  | .hbm, ⟨82, _⟩ => ⟨S1x128, .f32⟩
  | .hbm, ⟨83, _⟩ => ⟨S40000x128, .f32⟩
  | .hbm, ⟨84, _⟩ => ⟨S40000x128, .f32⟩
  | .hbm, ⟨85, _⟩ => ⟨S40000x128, .f32⟩
  | .hbm, ⟨86, _⟩ => ⟨S40000x128, .f32⟩
  | .hbm, ⟨87, _⟩ => ⟨S40000x128, .f32⟩
  | .hbm, ⟨88, _⟩ => ⟨S_, .f32⟩
  | .hbm, ⟨89, _⟩ => ⟨S40000, .f32⟩
  | .hbm, ⟨90, _⟩ => ⟨S40000x1, .f32⟩
  | .hbm, ⟨91, _⟩ => ⟨S40000x1, .f32⟩
  | .hbm, ⟨92, _⟩ => ⟨S_, .f32⟩
  | .hbm, ⟨93, _⟩ => ⟨S40000x1, .f32⟩
  | .hbm, ⟨94, _⟩ => ⟨S40000x1, .f32⟩
  | .hbm, ⟨95, _⟩ => ⟨S40000x128, .f32⟩
  | .hbm, ⟨96, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_cst : Ref sig .tc := ⟨.hbm, 44, rfl⟩
abbrev main_call0_v1 : Ref sig .tc := ⟨.hbm, 45, rfl⟩
abbrev main_call0_v2 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call2_v0 : Ref sig .tc := ⟨.hbm, 87, rfl⟩
abbrev main_call2_cst : Ref sig .tc := ⟨.hbm, 88, rfl⟩
abbrev main_call2_v1 : Ref sig .tc := ⟨.hbm, 89, rfl⟩
abbrev main_call2_v2 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S40000_d1 : S40000x128.ReducesTo [1] S40000
  h_S_ : 0 < S_.numel
  bcast_S_S40000x1 : S_.BroadcastsInDim S40000x1 (![] : Fin 0 → Fin S40000x1.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.SageSpec.lean ====
/-
  One SAGE layer, as a function of whole arrays over the extended reals.

  For a node `r` with aggregated neighbour features `a` (row `r` of `A`) and own features `x`
  (row `r` of `X`), the layer computes the linear part `p = a·Wl + x·Wr + b`, its Euclidean norm
  clamped below by the literal ε, and the quotient `p / max (‖p‖, ε)`.  The first layer is followed
  by `max (·, 0)`.  Only commutativity and associativity of `+` on the extended reals join the two
  orders in which the three summands of `p` can be added, so nothing here needs finiteness.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- A [40000, 128] array of extended reals: one row of 128 features per node. -/
abbrev Nodes := (⟨2, ![40000, 128]⟩ : Shape).Idx → EReal
/-- A [128, 128] weight matrix. -/
abbrev Weights := (⟨2, ![128, 128]⟩ : Shape).Idx → EReal

/-- The linear part of one node: `(a·Wl + x·Wr) + b`, feature by feature. -/
def lin (a x : Fin 128 → EReal) (Wl Wr : Fin 128 → Fin 128 → EReal) (b : Fin 128 → EReal) (j : Fin 128) : EReal :=
  ((∑ k : Fin 128, a k * Wl k j) + ∑ k : Fin 128, x k * Wr k j) + b j

/-- The same with the bias added before the second product: equal, by commutativity and associativity alone. -/
theorem lin_bias_first (a x : Fin 128 → EReal) (Wl Wr : Fin 128 → Fin 128 → EReal) (b : Fin 128 → EReal) (j : Fin 128) :
    ((∑ k : Fin 128, a k * Wl k j) + b j) + ∑ k : Fin 128, x k * Wr k j = lin a x Wl Wr b j :=
  add_right_comm _ _ _

/-- The Euclidean norm of a feature row, clamped below by ε (the f32 nearest 1e-12, read at its exact binary value). -/
def nrm (p : Fin 128 → EReal) : EReal :=
  max (Ideal.sqrt (∑ j : Fin 128, p j * p j)) (Ideal.ofBits .f32 0x2B8CBCCC#32)

/-- A feature row divided by its clamped norm. -/
def normalized (p : Fin 128 → EReal) (j : Fin 128) : EReal := Ideal.div (p j) (nrm p)

/-- One layer on whole arrays: row `r` of the result depends on row `r` of `A` and of `X` only. -/
def layer (A X : Nodes) (Wl Wr : Weights) (b : Fin 128 → EReal) : Nodes := fun i =>
  normalized (lin (fun k => A (ix2 (n0 := 40000) (n1 := 128) (i 0) k)) (fun k => X (ix2 (n0 := 40000) (n1 := 128) (i 0) k))
    (fun k j => Wl (ix2 k j)) (fun k j => Wr (ix2 k j)) b) (i 1)

/-- The rectifier between the layers: `max (·, 0)`, entry by entry. -/
def relu (Z : Nodes) : Nodes := fun i => max (Z i) (Ideal.ofBits .f32 0x00000000#32)

end Cert.Sage

end
-- ==== Proof.KernelRun.lean ====
/-
  The idealized kernel's whole run, with EVERY buffer named.

  @main is six segments: the host operations that aggregate neighbour features (gather, scatter-add,
  divide by the clamped in-degree), the first layer's grid of eight row blocks, the same aggregation
  of the first layer's result, and the second layer's grid.  The launch is read at its last thread
  state, which holds every unscoped buffer at the last boundary's contents `W6`: the result buffer
  among them, beside the argument arrays.
-/
import proofs.«146333_j31679678775439_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and in every final state each unscoped buffer of
    each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run with the result buffer named: it ends at the last boundary's contents of `main_v43`, the
    second layer's output array; the argument arrays end as launched. -/
theorem run_result : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)
    (run_all m ρ)

end Cert.KernelIdeal.Whole

end
-- ==== Proof.KernelPayload.lean ====
/-
  One row block of a layer, read index by index.

  The body's stored value, for a block of 5000 nodes, is a pure term of the five loaded blocks: two
  matrix products into zero accumulators (the casts to bf16 are the identity on extended reals), their
  sum, the bias row broadcast over the rows, then per row the sum of squares, its square root, the clamp
  by ε, and the quotient; the first layer's body ends with `max (·, 0)`.  Read at entry (p, q) of the
  block this is the specification's `normalized (lin …) q` of row `p` of the two feature blocks.
-/
import proofs.«146333_j31679678775439_1_alg».proof.Proof.Gen.KernelIdeal.Skeleton
import proofs.«146333_j31679678775439_1_alg».proof.Proof.SageSpec
import Idealize.ShloMosaic.Lib.Pipeline.Value
import Idealize.ShloMosaic.Lib.ValueLayout

noncomputable section

open scoped BigOperators

namespace Cert.KernelIdeal.Payload

open Cert.KernelIdeal Cert.KernelIdeal.Gen Cert.Sage
open Idealize.ShloMosaic Idealize.ShloMosaic.ValueIdx

/-! ## Layout operations of the row statistics, read at an index -/

/-- An `[a]` array cast to the column `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix unit's product into a zero accumulator -/

theorem lhs_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a [5000,128] × [128,128] product into the zero accumulator is the sum over the
    contracted axis of the products of row `p` and column `q`. -/
theorem product_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The body's term, in two parts -/

/-- The linear part of a block: the two products' sum plus the bias row. -/
def linBlock (a x : FVec Ideal S5000x128 .f32) (wl wr : FVec Ideal S128x128 .f32) (b : FVec Ideal S1x128 .f32) : FVec Ideal S5000x128 .f32 :=
  addf (addf (matmul dot_S5000x128_S128x128_S5000x128_1_0_0_1_n_n none (truncf .bf16 a bitsLt_bf16_f32) (truncf .bf16 wl bitsLt_bf16_f32) (constant S5000x128 .f32 0x00000000#32))
      (matmul dot_S5000x128_S128x128_S5000x128_1_0_0_1_n_n none (truncf .bf16 x bitsLt_bf16_f32) (truncf .bf16 wr bitsLt_bf16_f32) (constant S5000x128 .f32 0x00000000#32)))
    (broadcastTo S5000x128 b broadcasts_S1x128_S5000x128)

/-- A block divided, row by row, by its rows' clamped norms. -/
def normBlock (P : FVec Ideal S5000x128 .f32) : FVec Ideal S5000x128 .f32 :=
  divf P (broadcastTo S5000x128
    (maximumf (sqrt (shapeCast S5000x1 (multiReduction .add [1] S5000 (mulf P P) 0x00000000#32 reduces_S5000x128_S5000 (.inl rfl) rfl) shapeCasts_S5000_S5000x1))
      (broadcast S5000x1 (Scalar.ofBits (F := Ideal) .f32 0x2B8CBCCC#32))) broadcasts_S5000x1_S5000x128)

theorem k1_eq (v0 v3 : Vec Ideal S5000x128 .f32) (v6 v8 : Vec Ideal S128x128 .f32) (v13 : Vec Ideal S1x128 .f32) :
    k1_pay1 v0 v3 v6 v8 v13 = normBlock (linBlock v0 v3 v6 v8 v13) := by
  unfold k1_pay1 normBlock linBlock
  simp only [shapeCast_self]

theorem k0_eq (v0 v3 : Vec Ideal S5000x128 .f32) (v5 v7 : Vec Ideal S128x128 .f32) (v12 : Vec Ideal S1x128 .f32) :
    k0_pay1 v0 v3 v5 v7 v12 = maximumf (normBlock (linBlock v0 v3 v5 v7 v12)) (broadcast S5000x128 (Scalar.ofBits (F := Ideal) .f32 0x00000000#32)) := by
  unfold k0_pay1 normBlock linBlock
  simp only [shapeCast_self]

/-- The linear part at entry (p, q). -/
theorem linBlock_apply (a x : FVec Ideal S5000x128 .f32) (wl wr : FVec Ideal S128x128 .f32) (b : FVec Ideal S1x128 .f32) (p : Fin 5000) (q : Fin 128) :
    linBlock a x wl wr b (ix2 p q)
      = lin (fun k => a (ix2 p k)) (fun k => x (ix2 p k)) (fun k j => wl (ix2 k j)) (fun k j => wr (ix2 k j)) (fun j => b (ix2 (0 : Fin 1) j)) q := by
  unfold linBlock lin
  rw [addf_apply, addf_apply, product_apply, product_apply, broadcastTo_1b_ab_apply]
  rfl

/-- The sum of squares of row `p`: a lane reduction from the zero word. -/
theorem rowSum_apply (S : FVec Ideal S5000x128 .f32) (hacc : (0x00000000#32 : BitVec 32) = 0x00000000#32) (p : Fin 5000) :
    multiReduction .add [1] S5000 S 0x00000000#32 reduces_S5000x128_S5000 (.inl rfl) hacc (ix1 p) = ∑ k : Fin 128, S (ix2 p k) := by
  refine (Ideal.multiReduction_add_single S 0x00000000#32 reduces_S5000x128_S5000 (.inl rfl) hacc (ix1 p)).trans ?_
  refine Finset.sum_congr rfl fun k _ => congrArg S (funext fun a => Fin.ext ?_)
  match a with
  | ⟨0, _⟩ => rfl
  | ⟨1, _⟩ => rfl

/-- The normalized block at entry (p, q). -/
theorem normBlock_apply (P : FVec Ideal S5000x128 .f32) (p : Fin 5000) (q : Fin 128) :
    normBlock P (ix2 p q) = normalized (fun j => P (ix2 p j)) q := by
  unfold normBlock normalized nrm
  rw [divf_apply, broadcastTo_a1_ab_apply, maximumf_apply, broadcast_apply]
  show Ideal.div (P (ix2 p q)) (max (Ideal.sqrt (shapeCast S5000x1 _ shapeCasts_S5000_S5000x1 (ix2 p (0 : Fin 1)))) _) = _
  rw [shapeCast_a_a1_apply, rowSum_apply]
  rfl

end Cert.KernelIdeal.Payload

end
-- ==== Proof.KernelBlocks.lean ====
/-
  From row blocks to whole arrays.

  Each layer's grid has eight points; point `t` reads rows 5000·t … 5000·t + 4999 of the aggregated
  features and of the node features, the whole weight matrices and the bias row, and writes back the
  same rows of the output.  So what point `t` writes is block `t` of the specification's layer of the
  arrays the region finds, the eight blocks cover every row, and the output array after the region IS
  that layer — rectified after the first region, plain after the second.
-/
import proofs.«146333_j31679678775439_1_alg».proof.Proof.Gen.KernelIdeal.Frame
import proofs.«146333_j31679678775439_1_alg».proof.Proof.KernelPayload

noncomputable section

open scoped BigOperators

namespace Cert.KernelIdeal.Blocks

open Cert.KernelIdeal Cert.KernelIdeal.Gen Cert.Sage
open Idealize.ShloMosaic Idealize.ShloMosaic.TcCoe Idealize.ShloMosaic.ValueIdx Idealize.SL.Sem
open Idealize.ShloMosaic.Pipeline (Dat)

/-- A normalized block entry is the layer's entry at the array index it sits at, when the blocks hold the
    arrays' rows there. -/
theorem normLin_eq_layer (A X : Nodes) (Wl Wr : Weights) (bias : Fin 128 → EReal)
    (B0 B1 : FVec Ideal S5000x128 .f32) (B2 B4 : FVec Ideal S128x128 .f32) (B3 : FVec Ideal S1x128 .f32)
    (p : Fin 5000) (q : Fin 128) (i : (⟨2, ![40000, 128]⟩ : Shape).Idx) (hq : i 1 = q)
    (h0 : ∀ k, B0 (ix2 p k) = A (ix2 (n0 := 40000) (n1 := 128) (i 0) k))
    (h1 : ∀ k, B1 (ix2 p k) = X (ix2 (n0 := 40000) (n1 := 128) (i 0) k))
    (h2 : ∀ k j, B2 (ix2 k j) = Wl (ix2 k j)) (h4 : ∀ k j, B4 (ix2 k j) = Wr (ix2 k j))
    (h3 : ∀ j, B3 (ix2 (0 : Fin 1) j) = bias j) :
    Payload.normBlock (Payload.linBlock B0 B1 B2 B4 B3) (ix2 p q) = layer A X Wl Wr bias i := by
  rw [Payload.normBlock_apply]
  unfold layer
  rw [hq]
  simp only [Payload.linBlock_apply, h0, h1, h2, h4, h3]

theorem hz : (![0, 0] : Fin 2 → Nat) = fun _ => 0 := funext fun a => by fin_cases a <;> rfl

variable (V : (c : Dev nD) → (b : Ref sig .tc) → Buf (Elt Ideal) ((c : Thread nD τ).loc b))

/-! ## Region 0: the first layer's grid -/

/-- What the first layer's output array ends holding, as one function of the arrays the region finds. -/
def firstResult (c : Dev nD) : Nodes :=
  relu (layer (V c main_v22) (V c main_arg0) (V c main_arg2) (V c main_arg4) (fun j => V c main_call0_v0 (ix2 (0 : Fin 1) j)))

/-- The printed index maps, decided over the eight grid points: the two feature windows move with the output
    window along the rows, block `t` at point `t`; the weights and the bias stay at block 0. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer's result. -/
theorem flushed0_eq (c : Dev nD) (t : Fin cfg0.N) :
    (dat0 V c).flushed 5 t = ((cfg0.win 5).blk t).view.read (Elt Ideal) (firstResult V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [Payload.k0_eq]
  obtain ⟨e00, e01, e10, e11, e20, e21, e30, e31, e40, e41, e50, e51⟩ := idx_facts0 t
  funext y
  obtain ⟨p, q, rfl⟩ : ∃ (p : Fin 5000) (q : Fin 128), y = ix2 p q := ⟨y 0, y 1, eq_ix2 y⟩
  show max (Payload.normBlock (Payload.linBlock (iblk0 V c 0 t) (iblk0 V c 1 t) (iblk0 V c 2 t) (iblk0 V c 4 t) (iblk0 V c 3 t)) (ix2 p q)) (Ideal.ofBits .f32 0x00000000#32)
    = firstResult V c (((cfg0.win 5).blk t).view.emb (ix2 p q))
  unfold firstResult relu
  refine congrArg (max · _) (normLin_eq_layer _ _ _ _ _ _ _ _ _ _ p q _ ?_ ?_ ?_ ?_ ?_ ?_)
  · apply Fin.ext
    show win0_5.index t (1 : Fin 2) * 128 + 1 * q.val = q.val
    rw [e51]; omega
  · intro k
    show V c main_v22 (((cfg0.win 0).blk t).view.emb (ix2 p k)) = V c main_v22 _
    refine congrArg (V c main_v22) (funext fun a => Fin.ext ?_)
    match a with
    | ⟨0, _⟩ => show win0_0.index t (0 : Fin 2) * 5000 + 1 * p.val = win0_5.index t (0 : Fin 2) * 5000 + 1 * p.val; rw [e00]
    | ⟨1, _⟩ => show win0_0.index t (1 : Fin 2) * 128 + 1 * k.val = k.val; rw [e01]; omega
  · intro k
    show V c main_arg0 (((cfg0.win 1).blk t).view.emb (ix2 p k)) = V c main_arg0 _
    refine congrArg (V c main_arg0) (funext fun a => Fin.ext ?_)
    match a with
    | ⟨0, _⟩ => show win0_1.index t (0 : Fin 2) * 5000 + 1 * p.val = win0_5.index t (0 : Fin 2) * 5000 + 1 * p.val; rw [e10]
    | ⟨1, _⟩ => show win0_1.index t (1 : Fin 2) * 128 + 1 * k.val = k.val; rw [e11]; omega
  · intro k j
    show V c main_arg2 (((cfg0.win 2).blk t).view.emb (ix2 k j)) = V c main_arg2 _
    refine congrArg (V c main_arg2) (funext fun a => Fin.ext ?_)
    match a with
    | ⟨0, _⟩ => show win0_2.index t (0 : Fin 2) * 128 + 1 * k.val = k.val; rw [e20]; omega
    | ⟨1, _⟩ => show win0_2.index t (1 : Fin 2) * 128 + 1 * j.val = j.val; rw [e21]; omega
  · intro k j
    show V c main_arg4 (((cfg0.win 4).blk t).view.emb (ix2 k j)) = V c main_arg4 _
    refine congrArg (V c main_arg4) (funext fun a => Fin.ext ?_)
    match a with
    | ⟨0, _⟩ => show win0_4.index t (0 : Fin 2) * 128 + 1 * k.val = k.val; rw [e40]; omega
    | ⟨1, _⟩ => show win0_4.index t (1 : Fin 2) * 128 + 1 * j.val = j.val; rw [e41]; omega
  · intro j
    show V c main_call0_v0 (((cfg0.win 3).blk t).view.emb (ix2 (0 : Fin 1) j)) = V c main_call0_v0 _
    refine congrArg (V c main_call0_v0) (funext fun a => Fin.ext ?_)
    match a with
    | ⟨0, _⟩ => show win0_3.index t (0 : Fin 2) * 1 + 1 * 0 = 0; rw [e30]
    | ⟨1, _⟩ => show win0_3.index t (1 : Fin 2) * 128 + 1 * j.val = j.val; rw [e31]; omega

/-- An index of the output array is in point `t`'s block iff each coordinate is in the block's range. -/
theorem mem_blk0 (t : Fin cfg0.N) (i : S40000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Every row is in the block of the point `row / 5000`. -/
theorem cover0 (i : S40000x128.Idx) :
    ∃ t : Fin cfg0.N, (cfg0.win 5).flush t = true ∧ i ∈ ((cfg0.win 5).blk t).view.set := by
  have hi0 : (i 0).val < 40000 := (i 0).isLt
  have hi1 : (i 1).val < 128 := (i 1).isLt
  have hN : cfg0.N = 8 := N_0
  let t : Fin cfg0.N := ⟨(i 0).val / 5000, by rw [hN]; omega⟩
  obtain ⟨-, -, -, -, -, -, -, -, -, -, e50, e51⟩ := idx_facts0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; rw [e50, ht]; omega
  | ⟨1, _⟩ => show win0_5.index t (1 : Fin 2) * 128 ≤ (i 1).val ∧ (i 1).val < win0_5.index t (1 : Fin 2) * 128 + 128; rw [e51]; omega

/-- The first layer's output array after the region. -/
theorem final0 (c : Dev nD) : (dat0 V c).arrAt 5 cfg0.N = firstResult V c :=
  (dat0 V c).arrAt_eq_of_cover 5 (firstResult V c) (fun t _ => flushed0_eq V c t) (cover0)

/-! ## Region 1: the second layer's grid -/

/-- What the second layer's output array ends holding, as one function of the arrays the region finds. -/
def secondResult (c : Dev nD) : Nodes :=
  layer (V c main_v42) (V c main_v23) (V c main_arg5) (V c main_arg7) (fun j => V c main_call1_v0 (ix2 (0 : Fin 1) j))

/-- The printed index maps, decided over the eight grid points: the two feature windows move with the output
    window along the rows, block `t` at point `t`; the weights and the bias stay at block 0. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer's result. -/
theorem flushed1_eq (c : Dev nD) (t : Fin cfg1.N) :
    (dat1 V c).flushed 5 t = ((cfg1.win 5).blk t).view.read (Elt Ideal) (secondResult V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [Payload.k1_eq]
  obtain ⟨e00, e01, e10, e11, e20, e21, e30, e31, e40, e41, e50, e51⟩ := idx_facts1 t
  funext y
  obtain ⟨p, q, rfl⟩ : ∃ (p : Fin 5000) (q : Fin 128), y = ix2 p q := ⟨y 0, y 1, eq_ix2 y⟩
  show Payload.normBlock (Payload.linBlock (iblk1 V c 0 t) (iblk1 V c 1 t) (iblk1 V c 2 t) (iblk1 V c 4 t) (iblk1 V c 3 t)) (ix2 p q)
    = secondResult V c (((cfg1.win 5).blk t).view.emb (ix2 p q))
  unfold secondResult
  refine (normLin_eq_layer _ _ _ _ _ _ _ _ _ _ p q _ ?_ ?_ ?_ ?_ ?_ ?_)
  · apply Fin.ext
    show win1_5.index t (1 : Fin 2) * 128 + 1 * q.val = q.val
    rw [e51]; omega
  · intro k
    show V c main_v42 (((cfg1.win 0).blk t).view.emb (ix2 p k)) = V c main_v42 _
    refine congrArg (V c main_v42) (funext fun a => Fin.ext ?_)
    match a with
    | ⟨0, _⟩ => show win1_0.index t (0 : Fin 2) * 5000 + 1 * p.val = win1_5.index t (0 : Fin 2) * 5000 + 1 * p.val; rw [e00]
    | ⟨1, _⟩ => show win1_0.index t (1 : Fin 2) * 128 + 1 * k.val = k.val; rw [e01]; omega
  · intro k
    show V c main_v23 (((cfg1.win 1).blk t).view.emb (ix2 p k)) = V c main_v23 _
    refine congrArg (V c main_v23) (funext fun a => Fin.ext ?_)
    match a with
    | ⟨0, _⟩ => show win1_1.index t (0 : Fin 2) * 5000 + 1 * p.val = win1_5.index t (0 : Fin 2) * 5000 + 1 * p.val; rw [e10]
    | ⟨1, _⟩ => show win1_1.index t (1 : Fin 2) * 128 + 1 * k.val = k.val; rw [e11]; omega
  · intro k j
    show V c main_arg5 (((cfg1.win 2).blk t).view.emb (ix2 k j)) = V c main_arg5 _
    refine congrArg (V c main_arg5) (funext fun a => Fin.ext ?_)
    match a with
    | ⟨0, _⟩ => show win1_2.index t (0 : Fin 2) * 128 + 1 * k.val = k.val; rw [e20]; omega
    | ⟨1, _⟩ => show win1_2.index t (1 : Fin 2) * 128 + 1 * j.val = j.val; rw [e21]; omega
  · intro k j
    show V c main_arg7 (((cfg1.win 4).blk t).view.emb (ix2 k j)) = V c main_arg7 _
    refine congrArg (V c main_arg7) (funext fun a => Fin.ext ?_)
    match a with
    | ⟨0, _⟩ => show win1_4.index t (0 : Fin 2) * 128 + 1 * k.val = k.val; rw [e40]; omega
    | ⟨1, _⟩ => show win1_4.index t (1 : Fin 2) * 128 + 1 * j.val = j.val; rw [e41]; omega
  · intro j
    show V c main_call1_v0 (((cfg1.win 3).blk t).view.emb (ix2 (0 : Fin 1) j)) = V c main_call1_v0 _
    refine congrArg (V c main_call1_v0) (funext fun a => Fin.ext ?_)
    match a with
    | ⟨0, _⟩ => show win1_3.index t (0 : Fin 2) * 1 + 1 * 0 = 0; rw [e30]
    | ⟨1, _⟩ => show win1_3.index t (1 : Fin 2) * 128 + 1 * j.val = j.val; rw [e31]; omega

/-- An index of the output array is in point `t`'s block iff each coordinate is in the block's range. -/
theorem mem_blk1 (t : Fin cfg1.N) (i : S40000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43).slice (win1_5.rect t)).set ↔ _
  rw [View.set_slice_whole, Rect.mem_set_unit]
  exact Iff.rfl

/-- Every row is in the block of the point `row / 5000`. -/
theorem cover1 (i : S40000x128.Idx) :
    ∃ t : Fin cfg1.N, (cfg1.win 5).flush t = true ∧ i ∈ ((cfg1.win 5).blk t).view.set := by
  have hi0 : (i 0).val < 40000 := (i 0).isLt
  have hi1 : (i 1).val < 128 := (i 1).isLt
  have hN : cfg1.N = 8 := N_1
  let t : Fin cfg1.N := ⟨(i 0).val / 5000, by rw [hN]; omega⟩
  obtain ⟨-, -, -, -, -, -, -, -, -, -, e50, e51⟩ := idx_facts1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e50, ht]; omega
  | ⟨1, _⟩ => show win1_5.index t (1 : Fin 2) * 128 ≤ (i 1).val ∧ (i 1).val < win1_5.index t (1 : Fin 2) * 128 + 128; rw [e51]; omega

/-- The second layer's output array after the region. -/
theorem final1 (c : Dev nD) : (dat1 V c).arrAt 5 cfg1.N = secondResult V c :=
  (dat1 V c).arrAt_eq_of_cover 5 (secondResult V c) (fun t _ => flushed1_eq V c t) (cover1)

end Cert.KernelIdeal.Blocks

end
-- ==== Proof.KernelHost.lean ====
/-
  What the two grids find in their operands' arrays.

  Before each grid the host aggregates neighbour features: it gathers the rows named by the edges'
  sources, scatter-adds them at the edges' targets, and divides by the clamped in-degree.  The first
  grid finds that aggregation of the node features, the node features, the first layer's weights and
  the bias as a [1,128] row; the second finds the same aggregation of the first grid's output, that
  output, and the second layer's weights and bias.  The aggregation is spelt here by the reference's
  own stage `val_main_v22`: the two programs apply, operation for operation, the same host operations.
-/
import proofs.«146333_j31679678775439_1_alg».proof.Proof.Gen.KernelIdeal.Frame
import proofs.«146333_j31679678775439_1_alg».proof.Proof.Gen.ReferenceIdeal.Read
import proofs.«146333_j31679678775439_1_alg».proof.Proof.KernelBlocks
import Idealize.ShloMosaic.Lib.StableHlo.Run
import Idealize.ShloMosaic.Lib.ValueLayout

noncomputable section

open scoped BigOperators

namespace Cert.KernelIdeal.Host

open Cert.KernelIdeal Cert.KernelIdeal.Gen Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The first grid's operands -/

set_option maxRecDepth 65536 in
set_option maxHeartbeats 4000000 in
/-- The first grid's aggregated features: the reference's aggregation of the node features over the edges. -/
theorem entry0_agg (c : Dev nD) :
    V2 m ρ c main_v22 = Cert.ReferenceIdeal.Read.val_main_v22 (F := Ideal) (m ((c : Thread nD τ).loc main_arg0)) (m ((c : Thread nD τ).loc main_arg1)) := by
  show StableHlo.after hostOps0_1 (StableHlo.after hostOps0 (W0 m ρ c)) (Proc.devRef .tc main_v22) = _
  after_results_simp
  rfl

set_option maxRecDepth 65536 in
theorem entry0_x (c : Dev nD) : V2 m ρ c main_arg0 = m ((c : Thread nD τ).loc main_arg0) := by
  show StableHlo.after hostOps0_1 (StableHlo.after hostOps0 (W0 m ρ c)) (Proc.devRef .tc main_arg0) = _
  after_results_simp

set_option maxRecDepth 65536 in
theorem entry0_wl (c : Dev nD) : V2 m ρ c main_arg2 = m ((c : Thread nD τ).loc main_arg2) := by
  show StableHlo.after hostOps0_1 (StableHlo.after hostOps0 (W0 m ρ c)) (Proc.devRef .tc main_arg2) = _
  after_results_simp

set_option maxRecDepth 65536 in
theorem entry0_wr (c : Dev nD) : V2 m ρ c main_arg4 = m ((c : Thread nD τ).loc main_arg4) := by
  show StableHlo.after hostOps0_1 (StableHlo.after hostOps0 (W0 m ρ c)) (Proc.devRef .tc main_arg4) = _
  after_results_simp

set_option maxRecDepth 65536 in
/-- The first layer's bias row is the bias vector with a leading unit axis. -/
theorem entry0_b (c : Dev nD) (j : Fin 128) :
    V2 m ρ c main_call0_v0 (ix2 (0 : Fin 1) j) = m ((c : Thread nD τ).loc main_arg3) (ix1 j) := by
  have e : (V2 m ρ c main_call0_v0 : S1x128.Idx → EReal) = shapeCast S1x128 (m ((c : Thread nD τ).loc main_arg3)) shapeCasts_S128_S1x128 := by
    show StableHlo.after hostOps0_1 (StableHlo.after hostOps0 (W0 m ρ c)) (Proc.devRef .tc main_call0_v0) = _
    after_results_simp
    rfl
  rw [e]
  exact shapeCast_a_1a_apply _ _ _ _

/-! ## The second grid's operands -/

/-- The first layer's result: the rectified layer of the aggregated node features and the node features. -/
def firstValue (c : Dev nD) : Nodes :=
  relu (layer (Cert.ReferenceIdeal.Read.val_main_v22 (F := Ideal) (m ((c : Thread nD τ).loc main_arg0)) (m ((c : Thread nD τ).loc main_arg1)))
    (m ((c : Thread nD τ).loc main_arg0)) (m ((c : Thread nD τ).loc main_arg2)) (m ((c : Thread nD τ).loc main_arg4))
    (fun j => m ((c : Thread nD τ).loc main_arg3) (ix1 j)))

/-- The first grid leaves its output array at the first layer's result. -/
theorem exit0_h (c : Dev nD) : W3 m ρ c (Proc.devRef .tc main_v23) = firstValue m c := by
  rw [show W3 m ρ c (Proc.devRef .tc main_v23) = (dat0 (V2 m ρ) c).arrAt 5 cfg0.N from W3_arr m ρ c 5, Blocks.final0]
  unfold Blocks.firstResult firstValue
  rw [entry0_agg, entry0_x, entry0_wl, entry0_wr,
    show (fun j => V2 m ρ c main_call0_v0 (ix2 (0 : Fin 1) j)) = (fun j => m ((c : Thread nD τ).loc main_arg3) (ix1 j)) from funext (entry0_b m ρ c)]

set_option maxRecDepth 65536 in
/-- The edges' sources, computed before the first grid, are still there after it. -/
theorem exit0_src (c : Dev nD) :
    W3 m ρ c (Proc.devRef .tc main_v1) = Cert.ReferenceIdeal.Read.val_main_v1 (F := Ideal) (m ((c : Thread nD τ).loc main_arg1)) := by
  rw [W3_of_ne m ρ c main_v1 (by decide)]
  show StableHlo.after hostOps0_1 (StableHlo.after hostOps0 (W0 m ρ c)) (Proc.devRef .tc main_v1) = _
  after_results_simp
  rfl

set_option maxRecDepth 65536 in
/-- So are the edges' targets. -/
theorem exit0_dst (c : Dev nD) :
    W3 m ρ c (Proc.devRef .tc main_v3) = Cert.ReferenceIdeal.Read.val_main_v3 (F := Ideal) (m ((c : Thread nD τ).loc main_arg1)) := by
  rw [W3_of_ne m ρ c main_v3 (by decide)]
  show StableHlo.after hostOps0_1 (StableHlo.after hostOps0 (W0 m ρ c)) (Proc.devRef .tc main_v3) = _
  after_results_simp
  rfl

set_option maxRecDepth 65536 in
/-- An argument array the first grid does not write is, at its exit, as launched. -/
theorem exit0_arg (c : Dev nD) (b : Ref sig .tc) (hb : ∀ w, Pipeline.arrRef spec0 w ≠ b)
    (h0 : StableHlo.after hostOps0_1 (StableHlo.after hostOps0 (W0 m ρ c)) (Proc.devRef .tc b) = m ((c : Thread nD τ).loc b)) :
    W3 m ρ c (Proc.devRef .tc b) = m ((c : Thread nD τ).loc b) :=
  (W3_of_ne m ρ c b hb).trans h0

set_option maxRecDepth 65536 in
set_option maxHeartbeats 4000000 in
/-- The second grid's aggregated features: the same aggregation of the first layer's result. -/
theorem entry1_agg (c : Dev nD) :
    V5 m ρ c main_v42 = Cert.ReferenceIdeal.Read.val_main_v22 (F := Ideal) (firstValue m c) (m ((c : Thread nD τ).loc main_arg1)) := by
  show StableHlo.after hostOps1_1 (StableHlo.after hostOps1 (W3 m ρ c)) (Proc.devRef .tc main_v42) = _
  after_results_simp
  rw [exit0_h, exit0_src, exit0_dst]
  rfl

set_option maxRecDepth 65536 in
theorem entry1_h (c : Dev nD) : V5 m ρ c main_v23 = firstValue m c := by
  show StableHlo.after hostOps1_1 (StableHlo.after hostOps1 (W3 m ρ c)) (Proc.devRef .tc main_v23) = _
  after_results_simp
  exact exit0_h m ρ c

set_option maxRecDepth 65536 in
theorem entry1_wl (c : Dev nD) : V5 m ρ c main_arg5 = m ((c : Thread nD τ).loc main_arg5) := by
  show StableHlo.after hostOps1_1 (StableHlo.after hostOps1 (W3 m ρ c)) (Proc.devRef .tc main_arg5) = _
  after_results_simp
  refine exit0_arg m ρ c main_arg5 (by decide) ?_
  after_results_simp

set_option maxRecDepth 65536 in
theorem entry1_wr (c : Dev nD) : V5 m ρ c main_arg7 = m ((c : Thread nD τ).loc main_arg7) := by
  show StableHlo.after hostOps1_1 (StableHlo.after hostOps1 (W3 m ρ c)) (Proc.devRef .tc main_arg7) = _
  after_results_simp
  refine exit0_arg m ρ c main_arg7 (by decide) ?_
  after_results_simp

set_option maxRecDepth 65536 in
/-- The second layer's bias row. -/
theorem entry1_b (c : Dev nD) (j : Fin 128) :
    V5 m ρ c main_call1_v0 (ix2 (0 : Fin 1) j) = m ((c : Thread nD τ).loc main_arg6) (ix1 j) := by
  have e : (V5 m ρ c main_call1_v0 : S1x128.Idx → EReal) = shapeCast S1x128 (m ((c : Thread nD τ).loc main_arg6)) shapeCasts_S128_S1x128 := by
    show StableHlo.after hostOps1_1 (StableHlo.after hostOps1 (W3 m ρ c)) (Proc.devRef .tc main_call1_v0) = _
    after_results_simp
    rw [exit0_arg m ρ c main_arg6 (by decide) (by after_results_simp)]
    rfl
  rw [e]
  exact shapeCast_a_1a_apply _ _ _ _

/-! ## The result -/

/-- The result array after the second grid: the second layer of the aggregation of the first layer's result and
    that result. -/
theorem result_eq (c : Dev nD) :
    W6 m ρ c (Proc.devRef .tc main_v43)
      = layer (Cert.ReferenceIdeal.Read.val_main_v22 (F := Ideal) (firstValue m c) (m ((c : Thread nD τ).loc main_arg1))) (firstValue m c)
          (m ((c : Thread nD τ).loc main_arg5)) (m ((c : Thread nD τ).loc main_arg7)) (fun j => m ((c : Thread nD τ).loc main_arg6) (ix1 j)) := by
  rw [show W6 m ρ c (Proc.devRef .tc main_v43) = (dat1 (V5 m ρ) c).arrAt 5 cfg1.N from W6_arr m ρ c 5, Blocks.final1]
  unfold Blocks.secondResult
  rw [entry1_agg, entry1_h, entry1_wl, entry1_wr,
    show (fun j => V5 m ρ c main_call1_v0 (ix2 (0 : Fin 1) j)) = (fun j => m ((c : Thread nD τ).loc main_arg6) (ix1 j)) from funext (entry1_b m ρ c)]

end Cert.KernelIdeal.Host

end
-- ==== Proof.RefLayer1.lean ====
/-
  The reference's first layer, read index by index.

  Each stage of the reference reads at an index from its operands at an index; chained from the
  rectifier back to the two matrix products, entry (r, j) of the first layer's result is
  `max (p j / max (sqrt (0 + ∑ j', p j' · p j'), ε), 0)` with `p = (a·Wl + b) + x·Wr` over row `r` of the
  aggregated features `a` and of the node features `x`: the layer of the specification, the bias
  moved past the second product.
-/
import proofs.«146333_j31679678775439_1_alg».proof.Proof.Gen.ReferenceIdeal.Read
import proofs.«146333_j31679678775439_1_alg».proof.Proof.SageSpec

noncomputable section

open scoped BigOperators

namespace Cert.ReferenceIdeal.RefValue

open Cert.ReferenceIdeal Cert.ReferenceIdeal.Read Cert.Sage
open Idealize.ShloMosaic Idealize.ShloMosaic.ValueIdx

variable (x0 : (⟨S40000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal))

/-- The first layer's linear part at entry (r, j): the three summands in the reference's order are the
    specification's. -/
theorem pre1_apply (r : Fin 40000) (j : Fin 128) :
    val_main_v28 (F := Ideal) x0 x1 x2 x3 x4 (ix2 r j)
      = lin (fun k => val_main_v22 (F := Ideal) x0 x1 (ix2 r k)) (fun k => x0 (ix2 r k))
          (fun k j => x2 (ix2 k j)) (fun k j => x4 (ix2 k j)) (fun j => x3 (ix1 j)) j := by
  have e1 : ∀ k, lidx_main_v23 (ix2 r j) k = ix2 r k := fun k => funext fun a => Fin.ext (by
    match a with | ⟨0, _⟩ => rfl | ⟨1, _⟩ => rfl)
  have e2 : ∀ k, ridx_main_v23 (ix2 r j) k = ix2 k j := fun k => funext fun a => Fin.ext (by
    match a with | ⟨0, _⟩ => rfl | ⟨1, _⟩ => rfl)
  have e3 : ∀ k, lidx_main_v27 (ix2 r j) k = ix2 r k := fun k => funext fun a => Fin.ext (by
    match a with | ⟨0, _⟩ => rfl | ⟨1, _⟩ => rfl)
  have e4 : ∀ k, ridx_main_v27 (ix2 r j) k = ix2 k j := fun k => funext fun a => Fin.ext (by
    match a with | ⟨0, _⟩ => rfl | ⟨1, _⟩ => rfl)
  have e5 : idx_main_v24 (idx_main_v25 (ix2 r j)) = ix1 j := funext fun a => Fin.ext (by
    match a with | ⟨0, _⟩ => rfl)
  rw [val_main_v28_apply, val_main_v26_apply, val_main_v23_apply, val_main_v27_apply, val_main_v25_apply, val_main_v24_apply]
  simp only [e1, e2, e3, e4, e5]
  unfold lin
  exact add_right_comm _ _ _

/-- The first layer's result, rectified, is the specification's layer of the aggregated features and the
    node features. -/
theorem layer1_eq :
    val_main_v34 (F := Ideal) x0 x1 x2 x3 x4
      = relu (layer (val_main_v22 (F := Ideal) x0 x1) x0 x2 x4 (fun j => x3 (ix1 j))) := by
  funext i
  obtain ⟨r, j, rfl⟩ : ∃ (r : Fin 40000) (j : Fin 128), i = ix2 r j := ⟨i 0, i 1, eq_ix2 i⟩
  have e6 : ∀ k, idx_main_call0_v1 (idx_main_call0_v2 (idx_main_v32 (ix2 r j))) k = ix2 r k := fun k => funext fun a => Fin.ext (by
    match a with | ⟨0, _⟩ => rfl | ⟨1, _⟩ => rfl)
  rw [val_main_v34_apply, val_main_v33_apply, val_main_v32_apply, val_main_v31_apply, val_main_v29_apply,
    val_main_call0_v2_apply, val_main_call0_v1_apply, val_main_v30_apply, val_main_cst_4_apply,
    val_main_call1_v0_apply, val_main_call1_cst_apply, val_main_call0_cst_apply]
  simp only [val_main_call0_v0_apply, e6, pre1_apply]
  unfold relu layer normalized nrm
  simp only [Ideal.maximumf_def, Ideal.hostDivf_def, Ideal.hostUnary_sqrt_def, Ideal.ofBits_def, Ideal.mulf_def,
    Ideal.ofBits_zero_f32, zero_add]

end Cert.ReferenceIdeal.RefValue

end
-- ==== Proof.RefLayer2.lean ====
/-
  The reference's second layer, read index by index, and the second aggregation.

  The second layer repeats the first on the rectified first result `h`: its linear part is
  `(a'·Wl' + b') + h·Wr'` with `a'` the aggregation of `h` over the same edges, and its result the
  quotient by the clamped row norm, with no rectifier.  The aggregation of `h` is, operation for
  operation, the aggregation of the node features with `h` in their place.
-/
import proofs.«146333_j31679678775439_1_alg».proof.Proof.RefLayer1

noncomputable section

open scoped BigOperators

namespace Cert.ReferenceIdeal.RefValue

open Cert.ReferenceIdeal Cert.ReferenceIdeal.Read Cert.Sage
open Idealize.ShloMosaic Idealize.ShloMosaic.ValueIdx

variable (x0 : (⟨S40000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal))

/-- The second aggregation is the first one's operations applied to the first layer's result. -/
theorem agg2_eq :
    val_main_v53 (F := Ideal) x0 x1 x2 x3 x4 = val_main_v22 (F := Ideal) (val_main_v34 (F := Ideal) x0 x1 x2 x3 x4) x1 := rfl

/-- The second layer's linear part at entry (r, j). -/
theorem pre2_apply (r : Fin 40000) (j : Fin 128) :
    val_main_v59 (F := Ideal) x0 x1 x2 x3 x4 x5 x6 x7 (ix2 r j)
      = lin (fun k => val_main_v53 (F := Ideal) x0 x1 x2 x3 x4 (ix2 r k)) (fun k => val_main_v34 (F := Ideal) x0 x1 x2 x3 x4 (ix2 r k))
          (fun k j => x5 (ix2 k j)) (fun k j => x7 (ix2 k j)) (fun j => x6 (ix1 j)) j := by
  have e1 : ∀ k, lidx_main_v54 (ix2 r j) k = ix2 r k := fun k => funext fun a => Fin.ext (by
    match a with | ⟨0, _⟩ => rfl | ⟨1, _⟩ => rfl)
  have e2 : ∀ k, ridx_main_v54 (ix2 r j) k = ix2 k j := fun k => funext fun a => Fin.ext (by
    match a with | ⟨0, _⟩ => rfl | ⟨1, _⟩ => rfl)
  have e3 : ∀ k, lidx_main_v58 (ix2 r j) k = ix2 r k := fun k => funext fun a => Fin.ext (by
    match a with | ⟨0, _⟩ => rfl | ⟨1, _⟩ => rfl)
  have e4 : ∀ k, ridx_main_v58 (ix2 r j) k = ix2 k j := fun k => funext fun a => Fin.ext (by
    match a with | ⟨0, _⟩ => rfl | ⟨1, _⟩ => rfl)
  have e5 : idx_main_v55 (idx_main_v56 (ix2 r j)) = ix1 j := funext fun a => Fin.ext (by
    match a with | ⟨0, _⟩ => rfl)
  rw [val_main_v59_apply, val_main_v57_apply, val_main_v54_apply, val_main_v58_apply, val_main_v56_apply, val_main_v55_apply]
  simp only [e1, e2, e3, e4, e5]
  unfold lin
  exact add_right_comm _ _ _

/-- The reference's result is the specification's layer of the second aggregation and the first layer's result. -/
theorem layer2_eq :
    val_main_v64 (F := Ideal) x0 x1 x2 x3 x4 x5 x6 x7
      = layer (val_main_v53 (F := Ideal) x0 x1 x2 x3 x4) (val_main_v34 (F := Ideal) x0 x1 x2 x3 x4) x5 x7 (fun j => x6 (ix1 j)) := by
  funext i
  obtain ⟨r, j, rfl⟩ : ∃ (r : Fin 40000) (j : Fin 128), i = ix2 r j := ⟨i 0, i 1, eq_ix2 i⟩
  have e6 : ∀ k, idx_main_call2_v1 (idx_main_call2_v2 (idx_main_v63 (ix2 r j))) k = ix2 r k := fun k => funext fun a => Fin.ext (by
    match a with | ⟨0, _⟩ => rfl | ⟨1, _⟩ => rfl)
  rw [val_main_v64_apply, val_main_v63_apply, val_main_v62_apply, val_main_v60_apply,
    val_main_call2_v2_apply, val_main_call2_v1_apply, val_main_v61_apply, val_main_cst_11_apply,
    val_main_call2_cst_apply]
  simp only [val_main_call2_v0_apply, e6, pre2_apply]
  unfold layer normalized nrm
  simp only [Ideal.maximumf_def, Ideal.hostDivf_def, Ideal.hostUnary_sqrt_def, Ideal.ofBits_def, Ideal.mulf_def,
    Ideal.ofBits_zero_f32, zero_add]

/-- The whole reference, as the specification spells it: two layers, the first rectified, each on the
    aggregation (the reference's own gather, scatter-add and division, `val_main_v22`) of its input. -/
theorem reference_eq :
    val_main_v64 (F := Ideal) x0 x1 x2 x3 x4 x5 x6 x7
      = layer (val_main_v22 (F := Ideal) (relu (layer (val_main_v22 (F := Ideal) x0 x1) x0 x2 x4 (fun j => x3 (ix1 j)))) x1)
          (relu (layer (val_main_v22 (F := Ideal) x0 x1) x0 x2 x4 (fun j => x3 (ix1 j)))) x5 x7 (fun j => x6 (ix1 j)) := by
  rw [layer2_eq, agg2_eq, layer1_eq]

end Cert.ReferenceIdeal.RefValue

end
-- ==== Proof.lean ====
/-
  A two-layer SAGE stack against its jnp reference, over the extended reals.

  Each layer aggregates neighbour features on the host (gather the rows of the edges' sources, scatter-add
  them at the edges' targets, divide by the clamped in-degree), then per node forms `p = a·Wl + x·Wr + b`
  and divides it by `max (‖p‖, ε)`; the first layer is rectified.  The kernel computes the per-node part
  in a grid of eight blocks of 5000 rows, adding the bias last; the reference computes it on whole arrays,
  adding the bias before the second product.  Casts to bf16 are the identity on extended reals, a product
  into a zero accumulator is the host's contraction, a lane sum is the host's sum, and the three summands
  of `p` commute: so both programs end at one function of the arguments, with no use of finiteness.

  The three frames are the programs' runs with the results dropped; the idealization rewrote nothing.
-/
import proofs.«146333_j31679678775439_1_alg».proof.Defs
import proofs.«146333_j31679678775439_1_alg».proof.Proof.Gen.Kernel
import proofs.«146333_j31679678775439_1_alg».proof.Proof.Gen.Kernel.Skeleton
import proofs.«146333_j31679678775439_1_alg».proof.Proof.Gen.Kernel.Launch
import proofs.«146333_j31679678775439_1_alg».proof.Proof.Gen.Kernel.Points
import proofs.«146333_j31679678775439_1_alg».proof.Proof.Gen.Kernel.Frame
import proofs.«146333_j31679678775439_1_alg».proof.Proof.Gen.KernelIdeal
import proofs.«146333_j31679678775439_1_alg».proof.Proof.Gen.KernelIdeal.Skeleton
import proofs.«146333_j31679678775439_1_alg».proof.Proof.Gen.KernelIdeal.Launch
import proofs.«146333_j31679678775439_1_alg».proof.Proof.Gen.KernelIdeal.Points
import proofs.«146333_j31679678775439_1_alg».proof.Proof.Gen.KernelIdeal.Frame
import proofs.«146333_j31679678775439_1_alg».proof.Proof.Gen.ReferenceIdeal
import proofs.«146333_j31679678775439_1_alg».proof.Proof.Gen.ReferenceIdeal.Run
import proofs.«146333_j31679678775439_1_alg».proof.Proof.Gen.ReferenceIdeal.Read
import proofs.«146333_j31679678775439_1_alg».proof.Proof.Gen.Pre_finite_inputs
import proofs.«146333_j31679678775439_1_alg».proof.Proof.SageSpec
import proofs.«146333_j31679678775439_1_alg».proof.Proof.KernelRun
import proofs.«146333_j31679678775439_1_alg».proof.Proof.KernelPayload
import proofs.«146333_j31679678775439_1_alg».proof.Proof.KernelBlocks
import proofs.«146333_j31679678775439_1_alg».proof.Proof.KernelHost
import proofs.«146333_j31679678775439_1_alg».proof.Proof.RefLayer1
import proofs.«146333_j31679678775439_1_alg».proof.Proof.RefLayer2
import Idealize.ShloMosaic.Adequacy
import Idealize.ShloMosaic.Init

noncomputable section

namespace Cert.Proof

open Idealize.ShloMosaic Idealize.ShloMosaic.TcCoe Idealize.SL.Sem Idealize.ShloMosaic.ValueIdx Cert.Sage

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result at the second layer of the aggregation of the rectified first layer
    and that rectified first layer, of arguments that agree. -/
theorem algebraic : Cert.algebraic_KernelIdeal_ReferenceIdeal := by
  intro m ρ m' ρ' _ hagree
  refine ⟨fun c => layer (Cert.ReferenceIdeal.Read.val_main_v22 (F := Ideal) (Cert.KernelIdeal.Host.firstValue m c) (m ((c.tc : Thread Cert.KernelIdeal.nD Cert.KernelIdeal.τ).loc Cert.KernelIdeal.main_arg1)))
      (Cert.KernelIdeal.Host.firstValue m c) (m ((c.tc : Thread Cert.KernelIdeal.nD Cert.KernelIdeal.τ).loc Cert.KernelIdeal.main_arg5)) (m ((c.tc : Thread Cert.KernelIdeal.nD Cert.KernelIdeal.τ).loc Cert.KernelIdeal.main_arg7))
      (fun j => m ((c.tc : Thread Cert.KernelIdeal.nD Cert.KernelIdeal.τ).loc Cert.KernelIdeal.main_arg6) (ix1 j)), ?_, ?_⟩
  · exact (θ_run Cert.KernelIdeal.defs _ _).mono (fun r h c => ⟨(h c).1.trans (Cert.KernelIdeal.Host.result_eq m ρ c), (h c).2⟩)
      (Cert.KernelIdeal.Whole.run_result m ρ)
  · refine (θ_run Cert.ReferenceIdeal.defs _ _).mono (fun r h c => ⟨(h c).1.trans ?_, (h c).2⟩) (Cert.ReferenceIdeal.Value.run (F := Ideal) m' ρ')
    rw [Cert.ReferenceIdeal.Read.val_main_v64_eq, Cert.ReferenceIdeal.RefValue.reference_eq, (hagree c).1, (hagree c).2.1, (hagree c).2.2.1,
      (hagree c).2.2.2.1, (hagree c).2.2.2.2.1, (hagree c).2.2.2.2.2.1, (hagree c).2.2.2.2.2.2.1, (hagree c).2.2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
